-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x384 : Shape := ⟨3, ![8, 512, 384]⟩
abbrev S8x512 : Shape := ⟨2, ![8, 512]⟩
abbrev S_ : Shape := ⟨0, ![]⟩

class Facts : Prop where
  reduceWindows_S8x512_S8x512_w1s1p0_0_w512s1p511_0 : S8x512.ReduceWindows (![1, 512] : Fin 2 → Nat) ![1, 1] ![0, 511] ![0, 0] S8x512
  h_S_ : 0 < S_.numel
  bcast_S_S8x512x384 : S_.BroadcastsInDim S8x512x384 (![] : Fin 0 → Fin S8x512x384.rank)
  reducesTo_S8x512x384_S_d0_1_2 : S8x512x384.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_v0 : IVec S8x512 32) (main_v12 : IVec S_ 1) (main_v14 : IVec S8x512 1) (main_c_6 : IVec S_ 1) : IVec S_ 1 :=
  let main_v15 : IVec S_ 1 := (fun x v => Host.reduce IntOp.andi x v reducesTo_S8x512_S_d0_1 h_S_) main_v14 main_c_6
  let main_v16 : IVec S_ 1 := andi main_v12 main_v15
  let main_c_7 : IVec S_ 32 := constantI S_ 32 4096#32
  let main_v17 : IVec S8x512 32 := broadcastInDim S8x512 ![] bcast_S_S8x512 main_c_7
  let main_v18 : IVec S8x512 1 := cmpi .sle main_v0 main_v17
  let main_c_8 : IVec S_ 1 := constantI S_ 1 1#1
  let main_v19 : IVec S_ 1 := (fun x v => Host.reduce IntOp.andi x v reducesTo_S8x512_S_d0_1 h_S_) main_v18 main_c_8
  let main_v20 : IVec S_ 1 := andi main_v16 main_v19
  main_v20

def fn {F : FTy → Type} [FloatOps F] (main_arg0 : FVec F S8x512x384 .f32) (main_arg1 : IVec S8x512 32) : IVec S_ 1 :=
  let main_c : IVec S_ 32 := constantI S_ 32 0#32
  let main_v0 : IVec S8x512 32 := (fun x v => Host.reduceWindow IntOp.addi ![1, 512] ![1, 1] ![0, 511] ![0, 0] x v reduceWindows_S8x512_S8x512_w1s1p0_0_w512s1p511_0 h_S_) main_arg1 main_c
  let main_v1 : FVec F S8x512x384 .f32 := Host.absf main_arg0
  let main_cst : FVec F S_ .f32 := constant S_ .f32 0x7F800000#32
  let main_v2 : FVec F S8x512x384 .f32 := broadcastInDim S8x512x384 ![] bcast_S_S8x512x384 main_cst
  let main_v3 : IVec S8x512x384 1 := cmpf .olt main_v1 main_v2
  let main_c_0 : IVec S_ 1 := constantI S_ 1 1#1
  let main_v4 : IVec S_ 1 := (fun x v => Host.reduce IntOp.andi x v reducesTo_S8x512x384_S_d0_1_2 h_S_) main_v3 main_c_0
  let main_c_1 : IVec S_ 32 := constantI S_ 32 0#32
  let main_v5 : IVec S8x512 32 := broadcastInDim S8x512 ![] bcast_S_S8x512 main_c_1
  let main_v6 : IVec S8x512 1 := cmpi .sge main_arg1 main_v5
  let main_c_2 : IVec S_ 1 := constantI S_ 1 1#1
  let main_v7 : IVec S_ 1 := (fun x v => Host.reduce IntOp.andi x v reducesTo_S8x512_S_d0_1 h_S_) main_v6 main_c_2
  let main_v8 : IVec S_ 1 := andi main_v4 main_v7
  let main_c_3 : IVec S_ 32 := constantI S_ 32 4096#32
  let main_v9 : IVec S8x512 32 := broadcastInDim S8x512 ![] bcast_S_S8x512 main_c_3
  let main_v10 : IVec S8x512 1 := cmpi .sle main_arg1 main_v9
  let main_c_4 : IVec S_ 1 := constantI S_ 1 1#1
  let main_v11 : IVec S_ 1 := (fun x v => Host.reduce IntOp.andi x v reducesTo_S8x512_S_d0_1 h_S_) main_v10 main_c_4
  let main_v12 : IVec S_ 1 := andi main_v8 main_v11
  let main_c_5 : IVec S_ 32 := constantI S_ 32 0#32
  let main_v13 : IVec S8x512 32 := broadcastInDim S8x512 ![] bcast_S_S8x512 main_c_5
  let main_v14 : IVec S8x512 1 := cmpi .sge main_v0 main_v13
  let main_c_6 : IVec S_ 1 := constantI S_ 1 1#1
  fn_part1 (F := F) main_v0 main_v12 main_v14 main_c_6
-- ==== Kernel.lean ====
abbrev S8x512x384 : Shape := ⟨3, ![8, 512, 384]⟩
abbrev S8x512 : Shape := ⟨2, ![8, 512]⟩
abbrev S_ : Shape := ⟨0, ![]⟩
abbrev S8x1x512 : Shape := ⟨3, ![8, 1, 512]⟩
abbrev S8x4096x384 : Shape := ⟨3, ![8, 4096, 384]⟩
abbrev S1x512x384 : Shape := ⟨3, ![1, 512, 384]⟩
abbrev S1x1x512 : Shape := ⟨3, ![1, 1, 512]⟩
abbrev S1x2048x384 : Shape := ⟨3, ![1, 2048, 384]⟩
abbrev S512x384 : Shape := ⟨2, ![512, 384]⟩
abbrev S1x512 : Shape := ⟨2, ![1, 512]⟩
abbrev S2048x512 : Shape := ⟨2, ![2048, 512]⟩
abbrev S2048x384 : Shape := ⟨2, ![2048, 384]⟩

abbrev nBuf : Space → Nat
  | .hbm => 10
  | .vmem => 8
  | .smem => 0
  | _ => 0

abbrev bufTy : (tb : Table) → Fin (tcTables nBuf tb) → BufTy
  | .hbm, ⟨0, _⟩ => ⟨S8x512x384, .f32⟩
  | .hbm, ⟨1, _⟩ => ⟨S8x512, .i32⟩
  | .hbm, ⟨2, _⟩ => ⟨S_, .i32⟩
  | .hbm, ⟨3, _⟩ => ⟨S_, .i32⟩
  | .hbm, ⟨4, _⟩ => ⟨S8x512, .i32⟩
  | .hbm, ⟨5, _⟩ => ⟨S8x512, .i32⟩
  | .hbm, ⟨6, _⟩ => ⟨S8x1x512, .i32⟩
  | .hbm, ⟨7, _⟩ => ⟨S8x1x512, .i32⟩
  | .hbm, ⟨8, _⟩ => ⟨S8x512x384, .bf16⟩
  | .hbm, ⟨9, _⟩ => ⟨S8x4096x384, .f32⟩
  | .local _ .vmem, ⟨0, _⟩ => ⟨S1x512x384, .bf16⟩
  | .local _ .vmem, ⟨1, _⟩ => ⟨S1x512x384, .bf16⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x2048x384, .f32⟩
  | .local _ .vmem, ⟨7, _⟩ => ⟨S1x2048x384, .f32⟩
  | _, _ => ⟨S8x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S_ : S_.BroadcastsInDim S_ (![] : Fin 0 → Fin S_.rank)
  reduceWindows_S8x512_S8x512_w1s1p0_0_w512s1p511_0 : S8x512.ReduceWindows (![1, 512] : Fin 2 → Nat) ![1, 1] ![0, 511] ![0, 0] S8x512
  h_S_ : 0 < S_.numel
  shapeCasts_S8x512_S8x1x512 : S8x512.ShapeCasts S8x1x512
  bitsLt_bf16_f32 : FTy.bits .bf16 < FTy.bits .f32
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S2048x512_d0_w32 : S2048x512.Iotas .tc 32 [0]
  broadcasts_S1x512_S2048x512 : S1x512.Broadcasts S2048x512
  natLt_1_32 : 1 < 32
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  shapeCasts_S2048x384_S1x2048x384 : S2048x384.ShapeCasts S1x2048x384
  dot_S2048x512_S512x384_S2048x384_1_0_0_1_n_n_wf : DotDims.WF S2048x512 S512x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x384.size a ≤ S8x512x384.size a
  hwx0_0 : ∀ i : grid0.Coords, EltTy.bits .bf16 = 32 ∨ (Rect.block (s := S8x512x384) S1x512x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .i32 = 32 ∨ (Rect.block (s := S8x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .i32 = 32 ∨ (Rect.block (s := S8x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x384.size a ≤ S8x4096x384.size a
  hwx0_3 : ∀ i : grid0.Coords, EltTy.bits .f32 = 32 ∨ (Rect.block (s := S8x4096x384) S1x2048x384.size (cc0_transform_3 i) (hinb0_3 i)).WholeWords (EltTy.packing .f32)

variable [Facts₀]

def dot_S2048x512_S512x384_S2048x384_1_0_0_1_n_n : DotDims S2048x512 S512x384 S2048x384 where
  lhsContracting := [1]
  rhsContracting := [0]
  lhsNonContracting := [0]
  rhsNonContracting := [1]
  lhsBatch := []
  rhsBatch := []
  wf := dot_S2048x512_S512x384_S2048x384_1_0_0_1_n_n_wf

abbrev win0_0 : Pipeline.Window sig grid0 :=
  Pipeline.Window.ofSpec (Memref.whole main_v4) S1x512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x384 : Shape := ⟨3, ![8, 512, 384]⟩
abbrev S8x512 : Shape := ⟨2, ![8, 512]⟩
abbrev S_ : Shape := ⟨0, ![]⟩
abbrev S4096 : Shape := ⟨1, ![4096]⟩
abbrev S1x4096x1 : Shape := ⟨3, ![1, 4096, 1]⟩
abbrev S8x1x512 : Shape := ⟨3, ![8, 1, 512]⟩
abbrev S8x4096x512 : Shape := ⟨3, ![8, 4096, 512]⟩
abbrev S8x4096x384 : Shape := ⟨3, ![8, 4096, 384]⟩

abbrev nBuf : Space → Nat
  | .hbm => 19
  | .vmem => 0
  | .smem => 0
  | _ => 0

abbrev bufTy : (tb : Table) → Fin (tcTables nBuf tb) → BufTy
  | .hbm, ⟨0, _⟩ => ⟨S8x512x384, .f32⟩
  | .hbm, ⟨1, _⟩ => ⟨S8x512, .i32⟩
  | .hbm, ⟨2, _⟩ => ⟨S_, .i32⟩
  | .hbm, ⟨3, _⟩ => ⟨S_, .i32⟩
  | .hbm, ⟨4, _⟩ => ⟨S8x512, .i32⟩
  | .hbm, ⟨5, _⟩ => ⟨S8x512, .i32⟩
  | .hbm, ⟨6, _⟩ => ⟨S4096, .i32⟩
  | .hbm, ⟨7, _⟩ => ⟨S1x4096x1, .i32⟩
  | .hbm, ⟨8, _⟩ => ⟨S8x1x512, .i32⟩
  | .hbm, ⟨9, _⟩ => ⟨S8x4096x512, .i32⟩
  | .hbm, ⟨10, _⟩ => ⟨S8x4096x512, .i32⟩
  | .hbm, ⟨11, _⟩ => ⟨S8x4096x512, .i1⟩
  | .hbm, ⟨12, _⟩ => ⟨S8x1x512, .i32⟩
  | .hbm, ⟨13, _⟩ => ⟨S8x4096x512, .i32⟩
  | .hbm, ⟨14, _⟩ => ⟨S8x4096x512, .i32⟩
  | .hbm, ⟨15, _⟩ => ⟨S8x4096x512, .i1⟩
  | .hbm, ⟨16, _⟩ => ⟨S8x4096x512, .i1⟩
  | .hbm, ⟨17, _⟩ => ⟨S8x4096x512, .f32⟩
  | .hbm, ⟨18, _⟩ => ⟨S8x4096x384, .f32⟩
  | _, _ => ⟨S8x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x512_S8x512_w1s1p0_0_w512s1p511_0 : S8x512.ReduceWindows (![1, 512] : Fin 2 → Nat) ![1, 1] ![0, 511] ![0, 0] S8x512
  h_S_ : 0 < S_.numel
  bcast_S4096_S1x4096x1_1 : S4096.BroadcastsInDim S1x4096x1 (![1] : Fin 1 → Fin S1x4096x1.rank)
  bcast_S8x512_S8x1x512_0_2 : S8x512.BroadcastsInDim S8x1x512 (![0, 2] : Fin 2 → Fin S8x1x512.rank)
  bcast_S1x4096x1_S8x4096x512_0_1_2 : S1x4096x1.BroadcastsInDim S8x4096x512 (![0, 1, 2] : Fin 3 → Fin S8x4096x512.rank)
  bcast_S8x1x512_S8x4096x512_0_1_2 : S8x1x512.BroadcastsInDim S8x4096x512 (![0, 1, 2] : Fin 3 → Fin S8x4096x512.rank)
  dot_S8x4096x512_S8x512x384_S8x4096x384_2_1_1_2_0_0_wf : DotDims.WF S8x4096x512 S8x512x384 S8x4096x384 [2] [1] [1] [2] [0] [0]

variable [Facts₀]

def dot_S8x4096x512_S8x512x384_S8x4096x384_2_1_1_2_0_0 : DotDims S8x4096x512 S8x512x384 S8x4096x384 where
  lhsContracting := [2]
  rhsContracting := [1]
  lhsNonContracting := [1]
  rhsNonContracting := [2]
  lhsBatch := [0]
  rhsBatch := [0]
  wf := dot_S8x4096x512_S8x512x384_S8x4096x384_2_1_1_2_0_0_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.KPayload.lean ====
/-
  One tile of the length regulator, read at an entry. The body receives a batch's input rows x0 (512 × 384), its left
  and right window boundaries x1, x2 (1 × 512 words each) and the tile number i₁; with off = 2048 · i₁ it forms the mask
  of the tile's 2048 frames against the 512 positions — row r, position k: the bit (l(k) − off ≤ r) ∧ (r < c(k) − off),
  signed, as the number 0 or 1 — and multiplies the mask into x0. At entry (r, d) of the stored block that is the sum
  over the positions k of the mask's number at (r, k) times x0(k, d).
-/
import proofs.«148968_j1039382086246_2_alg».proof.Proof.Gen.KernelIdeal.Skeleton
import proofs.«148968_j1039382086246_2_alg».proof.Proof.LibDotEntry
import proofs.«148968_j1039382086246_2_alg».proof.Proof.LibMatDims
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen

/-- The row-number array of a tile holds, at (r, k), the row number r. -/
theorem rowNumber_entry (h : S2048x512.Iotas .tc 32 [0]) (r : Fin 2048) (k : Fin 512) :
    iota .tc S2048x512 32 [0] h (ix2 r k) = BitVec.ofNat 32 r.val := by
  show BitVec.ofNat 32 (0 * 2048 + r.val) = _
  rw [Nat.zero_mul, Nat.zero_add]

/-- The number the tile's mask holds at row r, position k, for boundary words l, c and the tile's offset word:
    the bit (l − off ≤ r) ∧ (r < c − off), widened to 32 bits and read as a signed integer. -/
def maskNumber (l c off : BitVec 32) (r : ℕ) : EReal :=
  ((((IntOp.andi (IntOp.cmpi .sge (BitVec.ofNat 32 r) (IntOp.subi l off))
      (IntOp.cmpi .slt (BitVec.ofNat 32 r) (IntOp.subi c off))).setWidth 32).toInt : ℝ) : EReal)

/-- The tile's mask, as the body computes it from the two boundary rows and the offset word, at an entry. -/
theorem mask_entry (l3 c3 : IVec S1x512 32) (off : BitVec 32) (hio : S2048x512.Iotas .tc 32 [0])
    (hb : S1x512.Broadcasts S2048x512) (hlt : 1 < 32) (hbits : FTy.bits .bf16 < FTy.bits .f32) (r : Fin 2048) (k : Fin 512) :
    (truncf .bf16 (sitofp (F := Ideal) .f32 (extui 32 (andi
        (cmpi .sge (iota .tc S2048x512 32 [0] hio) (broadcastTo S2048x512 (subi l3 (broadcast S1x512 off)) hb))
        (cmpi .slt (iota .tc S2048x512 32 [0] hio) (broadcastTo S2048x512 (subi c3 (broadcast S1x512 off)) hb))) hlt)) hbits
      : FVec Ideal S2048x512 .bf16) (ix2 r k)
    = maskNumber (l3 (ix2 (0 : Fin 1) k)) (c3 (ix2 (0 : Fin 1) k)) off r.val := by
  show ((((IntOp.andi
      (IntOp.cmpi .sge (iota .tc S2048x512 32 [0] hio (ix2 r k)) (broadcastTo S2048x512 (subi l3 (broadcast S1x512 off)) hb (ix2 r k)))
      (IntOp.cmpi .slt (iota .tc S2048x512 32 [0] hio (ix2 r k)) (broadcastTo S2048x512 (subi c3 (broadcast S1x512 off)) hb (ix2 r k)))).setWidth 32).toInt : ℝ) : EReal) = _
  rw [rowNumber_entry, broadcastTo_1b_ab_apply, broadcastTo_1b_ab_apply]
  rfl

/-- The dimension record of the tile's product: one contracted axis of extent 512, the left factor read at
    (row, k) and the right factor at (k, column). -/
theorem tile_product (lhs : FVec Ideal S2048x512 .bf16) (rhs : FVec Ideal S512x384 .bf16) (r : Fin 2048) (d : Fin 384) :
    matmul dot_S2048x512_S512x384_S2048x384_1_0_0_1_n_n none lhs rhs (constant (F := Ideal) S2048x384 .f32 0x00000000#32) (ix2 r d)
      = ∑ k : Fin 512, lhs (ix2 r k) * rhs (ix2 k d) :=
  Cert.Lib.DotEntry.matmul_zero_ix2 dot_S2048x512_S512x384_S2048x384_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) lhs rhs r d

/-- THE STORED BLOCK AT AN ENTRY: at tile number i₁ the body's result at (·, r, d) is the sum over the positions k of
    the mask's number at (r, k) — boundaries x1(k), x2(k), offset 2048 · i₁ — times the input row k at column d. -/
theorem block_entry (i : grid0.Coords) (x0 : Vec Ideal S1x512x384 .bf16) (x1 x2 : Vec Ideal S1x1x512 .i32)
    (u : Fin 1) (r : Fin 2048) (d : Fin 384) :
    k0_pay1 (F := Ideal) i x0 x1 x2 (ix3 u r d)
      = ∑ k : Fin 512, maskNumber (x1 (ix3 (0 : Fin 1) (0 : Fin 1) k)) (x2 (ix3 (0 : Fin 1) (0 : Fin 1) k))
            (Scalar.muli (BitVec.ofNat 32 (i 1).val) 2048#32) r.val * x0 (ix3 (0 : Fin 1) k d) := by
  unfold k0_pay1
  refine (shapeCast_ab_1ab_apply _ _ u r d).trans ?_
  refine (tile_product _ _ r d).trans ?_
  refine Finset.sum_congr rfl fun k _ => ?_
  refine congrArg₂ (· * ·) ?_ ?_
  · refine (mask_entry _ _ _ _ _ _ _ r k).trans ?_
    rw [shapeCast_1ab_ab_apply, shapeCast_1ab_ab_apply]
  · exact shapeCast_1ab_ab_apply x0 _ k d

end Cert.KernelIdeal.Tile

end
-- ==== Proof.KValue.lean ====
/-
  The kernel's result array as one function of the arrays its windows read. The grid has a point per batch b and tile
  number i₁ ∈ {0, 1}; the point writes back rows 2048·i₁ … 2048·i₁ + 2047 of batch b, computed from batch b's input rows
  and boundary rows. So frame f = 2048·i₁ + r of batch b holds
      Σₖ maskNumber(l(b,k), c(b,k), 2048·(f / 2048), f mod 2048) · x(b, k, d),
  the sixteen blocks tile the array, and after the run the array is that function of the window arrays as the region
  finds them.
-/
import proofs.«148968_j1039382086246_2_alg».proof.Proof.FrameKernelIdeal
import proofs.«148968_j1039382086246_2_alg».proof.Proof.KPayload
import Idealize.ShloMosaic.Lib.Pipeline.Value
import Idealize.ShloMosaic.Lib.ValueIdx

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.GenP Cert.KernelIdeal.Tile
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- Entry (b, f, d) of the kernel's result for input rows x and boundary rows l, c: frame f lies in tile f / 2048 at
    row f mod 2048, and the tile compares that row with the boundaries less the tile's offset. -/
def entry (x : Vec Ideal S8x512x384 .bf16) (l c : Vec Ideal S8x1x512 .i32) (b : Fin 8) (f : Fin 4096) (d : Fin 384) : EReal :=
  ∑ k : Fin 512, maskNumber (l (ix3 b (0 : Fin 1) k)) (c (ix3 b (0 : Fin 1) k))
      (Scalar.muli (BitVec.ofNat 32 (f.val / 2048)) 2048#32) (f.val % 2048) * x (ix3 b k d)

/-- The kernel's result array for input rows x and boundary rows l, c. -/
def out (x : Vec Ideal S8x512x384 .bf16) (l c : Vec Ideal S8x1x512 .i32) : S8x4096x384.Idx → EReal :=
  fun idx => entry x l c (idx 0) (idx 1) (idx 2)

theorem out_ix3 (x : Vec Ideal S8x512x384 .bf16) (l c : Vec Ideal S8x1x512 .i32) (b : Fin 8) (f : Fin 4096) (d : Fin 384) :
    out x l c (ix3 b f d) = entry x l c b f d := rfl

/-- The printed index maps over the sixteen points: every input window follows the output's batch and stays at block 0
    on its other axes; the output's block is (batch, tile number, 0), and the tile number is the point's second
    grid coordinate. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) < 2 ∧ win0_3.index t (2 : Fin 3) = 0
    ∧ ((grid0.coords t) 1).val = win0_3.index t (1 : Fin 3) :=
  (by decide +kernel : ∀ t : Fin grid0.N, _)

/-- Every block (batch, tile number, 0) of the output is some point's. -/
theorem idx_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- WHAT POINT t WRITES BACK is block t of `out` of the window arrays as the region finds them. -/
theorem flushed_eq (c : Dev nD) (t : Fin cfg0.N) :
    (dats m 0 c).flushed 3 t
      = ((cfg0.win 3).blk t).view.read (Elt Ideal) (out (V m c main_v4) (V m c main_v2) (V m c main_v3)) := by
  show (cfg0.win 3).cut (grid0.coords t) ((dats m 0 c).after 3 t) = _
  rw [after0_3]
  unfold out0_3
  rw [View.canon_unit_zero hz3]
  simp only [View.ld_unit_zero (S := S1x512x384) hz3, View.ld_unit_zero (S := S1x1x512) hz3]
  obtain ⟨e00, e01, e02, e10, e11, e12, e20, e21, e22, b0, b1, b2, eg⟩ := idx_facts t
  funext j
  obtain ⟨u, r, d, rfl⟩ : ∃ (u : Fin 1) (r : Fin 2048) (d : Fin 384), j = ix3 u r d := ⟨j 0, j 1, j 2, eq_ix3 j⟩
  show k0_pay1 (grid0.coords t) (iblk m c 0 t) (iblk m c 1 t) (iblk m c 2 t) (ix3 u r d)
    = out (V m c main_v4) (V m c main_v2) (V m c main_v3) (((cfg0.win 3).blk t).view.emb (ix3 u r d))
  have hu : u.val = 0 := by omega
  have hr : r.val < 2048 := r.isLt
  -- where the block's entry (·, r, d) sits in the array: batch = the block's batch, frame = 2048 · tile + r
  have hemb : ((cfg0.win 3).blk t).view.emb (ix3 u r d)
      = ix3 (⟨win0_3.index t (0 : Fin 3), b0⟩ : Fin 8)
          (⟨win0_3.index t (1 : Fin 3) * 2048 + r.val, by omega⟩ : Fin 4096) d := by
    funext a; apply Fin.ext
    match a with
    | ⟨0, _⟩ => show win0_3.index t (0 : Fin 3) * 1 + 1 * u.val = win0_3.index t (0 : Fin 3); omega
    | ⟨1, _⟩ => show win0_3.index t (1 : Fin 3) * 2048 + 1 * r.val = win0_3.index t (1 : Fin 3) * 2048 + r.val; omega
    | ⟨2, _⟩ => show win0_3.index t (2 : Fin 3) * 384 + 1 * d.val = d.val; omega
  rw [hemb, out_ix3]
  refine (block_entry _ _ _ _ u r d).trans ?_
  unfold entry
  refine Finset.sum_congr rfl fun k _ => ?_
  -- each input block, read where the output's block says: the same batch, the whole row of positions
  have h1 : iblk m c 1 t (ix3 (0 : Fin 1) (0 : Fin 1) k)
      = V m c main_v2 (ix3 (⟨win0_3.index t (0 : Fin 3), b0⟩ : Fin 8) (0 : Fin 1) k) := by
    show V m c main_v2 (((cfg0.win 1).blk t).view.emb (ix3 (0 : Fin 1) (0 : Fin 1) k)) = _
    refine congrArg (V m c main_v2) (funext fun a => Fin.ext ?_)
    match a with
    | ⟨0, _⟩ => show win0_1.index t (0 : Fin 3) * 1 + 1 * 0 = win0_3.index t (0 : Fin 3); omega
    | ⟨1, _⟩ => show win0_1.index t (1 : Fin 3) * 1 + 1 * 0 = 0; omega
    | ⟨2, _⟩ => show win0_1.index t (2 : Fin 3) * 512 + 1 * k.val = k.val; omega
  have h2 : iblk m c 2 t (ix3 (0 : Fin 1) (0 : Fin 1) k)
      = V m c main_v3 (ix3 (⟨win0_3.index t (0 : Fin 3), b0⟩ : Fin 8) (0 : Fin 1) k) := by
    show V m c main_v3 (((cfg0.win 2).blk t).view.emb (ix3 (0 : Fin 1) (0 : Fin 1) k)) = _
    refine congrArg (V m c main_v3) (funext fun a => Fin.ext ?_)
    match a with
    | ⟨0, _⟩ => show win0_2.index t (0 : Fin 3) * 1 + 1 * 0 = win0_3.index t (0 : Fin 3); omega
    | ⟨1, _⟩ => show win0_2.index t (1 : Fin 3) * 1 + 1 * 0 = 0; omega
    | ⟨2, _⟩ => show win0_2.index t (2 : Fin 3) * 512 + 1 * k.val = k.val; omega
  have h0 : iblk m c 0 t (ix3 (0 : Fin 1) k d)
      = V m c main_v4 (ix3 (⟨win0_3.index t (0 : Fin 3), b0⟩ : Fin 8) k d) := by
    show V m c main_v4 (((cfg0.win 0).blk t).view.emb (ix3 (0 : Fin 1) k d)) = _
    refine congrArg (V m c main_v4) (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * k.val = k.val; omega
    | ⟨2, _⟩ => show win0_0.index t (2 : Fin 3) * 384 + 1 * d.val = d.val; omega
  have hd : (win0_3.index t (1 : Fin 3) * 2048 + r.val) / 2048 = ((grid0.coords t) 1).val := by rw [eg]; omega
  have hm : (win0_3.index t (1 : Fin 3) * 2048 + r.val) % 2048 = r.val := by omega
  rw [h1, h2, h0]
  show _ = maskNumber _ _ (Scalar.muli (BitVec.ofNat 32 ((win0_3.index t (1 : Fin 3) * 2048 + r.val) / 2048)) 2048#32)
      ((win0_3.index t (1 : Fin 3) * 2048 + r.val) % 2048) * _
  rw [hd, hm]

/-- An index of the array is in point t's block iff each coordinate is in the block's range on its axis. -/
theorem mem_blk (t : Fin cfg0.N) (i : S8x4096x384.Idx) :
    i ∈ ((cfg0.win 3).blk t).view.set ↔ ∀ a : Fin 3, win0_3.index t a * S1x2048x384.size a ≤ (i a).val
      ∧ (i a).val < win0_3.index t a * S1x2048x384.size a + S1x2048x384.size a := by
  show i ∈ ((View.whole main_v5).slice (win0_3.rect t)).set ↔ _
  rw [View.set_slice_whole, Rect.mem_set_unit]
  exact Iff.rfl

/-- THE BLOCKS TILE THE ARRAY: index (b, f, d) is in the block of the point of batch b and tile number f / 2048. -/
theorem cover (i : S8x4096x384.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 384 := (i 2).isLt
  obtain ⟨t, ht⟩ := idx_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 384 ≤ (i 2).val ∧ (i 2).val < win0_3.index t (2 : Fin 3) * 384 + 384; omega

/-- THE ARRAY after the run: `out` of the window arrays as the region finds them. -/
theorem final (c : Dev nD) :
    (dats m 0 c).arrAt 3 cfg0.N = out (V m c main_v4) (V m c main_v2) (V m c main_v3) :=
  (dats m 0 c).arrAt_eq_of_cover 3 _ (fun t _ => flushed_eq m c t) cover

/-- The run, read: the result array at `out` of the window arrays, the two arguments unchanged (no window stages
    an argument array: each is one of the buffers the region leaves alone, and no host operation writes it). -/
theorem run : θ_run defs (onTc (τ := τ) (main (F := Ideal))) ⟨m, fun _ => 0, ρ⟩ fun r => ∀ c : Dev nD,
      r.2.mem ((c : Thread nD τ).loc main_v5) = out (V m c main_v4) (V m c main_v2) (V m c main_v3)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Whole

end
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.Spec.lean ====
/-
  The length regulator as one function of its arguments. Row b of `ds` holds integer durations; their running sums
  `cum` are the right ends of consecutive windows of output frames and `left = cum - ds` the left ends, so frame f of
  batch b copies the input row k whose window [left(b,k), cum(b,k)) contains f:
      out(b, f, d) = Σₖ weight(left(b,k), cum(b,k), f) · xs(b, k, d),   weight = 1 inside the window, 0 outside.
  The boundaries are 32-bit words (addition and subtraction wrap, comparisons are signed); the weight is the mask
  bit read as a real number. Both programs are compared with this function.
-/
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S8x512 : Shape := ⟨2, ![8, 512]⟩
abbrev S8x512x384 : Shape := ⟨3, ![8, 512, 384]⟩
abbrev S8x4096x384 : Shape := ⟨3, ![8, 4096, 384]⟩

/-- A window of 512 along a row, 511 places of padding in front, stride one: one window per position. -/
theorem windows : S8x512.ReduceWindows (![1, 512] : Fin 2 → Nat) ![1, 1] ![0, 511] ![0, 0] S8x512 := by decide
theorem unit_pos : 0 < S_.numel := by decide

/-- The right boundaries: the running sum of a row's durations up to and including position k (the sum over the
    window of the 512 positions ending at k, the places before the row's start counting zero). -/
def cum (ds : IVec S8x512 32) : IVec S8x512 32 :=
  Host.reduceWindow IntOp.addi ![1, 512] ![1, 1] ![0, 511] ![0, 0] ds (constantI S_ 32 0#32) windows unit_pos

/-- The left boundaries: the running sum before position k. -/
def left (ds : IVec S8x512 32) : IVec S8x512 32 := subi (cum ds) ds

/-- The mask at frame f for a window [l, c): the bit (l ≤ f) ∧ (f < c), signed, read as the real number 0 or 1. -/
def weight (l c f : BitVec 32) : EReal :=
  (((IntOp.andi (IntOp.cmpi .sge f l) (IntOp.cmpi .slt f c)).toNat : ℝ) : EReal)

/-- Entry (b, f, d) of the result for boundaries L, C: the masked sum over the input positions. -/
def entry (xs : FVec Ideal S8x512x384 .f32) (L C : IVec S8x512 32) (b : Fin 8) (f : Fin 4096) (d : Fin 384) : EReal :=
  ∑ k : Fin 512, weight (L (ix2 b k)) (C (ix2 b k)) (BitVec.ofNat 32 f.val) * xs (ix3 b k d)

/-- The result array for boundaries L, C. -/
def out (xs : FVec Ideal S8x512x384 .f32) (L C : IVec S8x512 32) : FVec Ideal S8x4096x384 .f32 :=
  fun idx => entry xs L C (idx 0) (idx 1) (idx 2)

theorem out_ix3 (xs : FVec Ideal S8x512x384 .f32) (L C : IVec S8x512 32) (b : Fin 8) (f : Fin 4096) (d : Fin 384) :
    out xs L C (ix3 b f d) = entry xs L C b f d := rfl

/-- The length regulator's result: the boundaries are those of the durations. -/
def result (xs : FVec Ideal S8x512x384 .f32) (ds : IVec S8x512 32) : FVec Ideal S8x4096x384 .f32 :=
  out xs (left ds) (cum ds)

end Cert.Spec

end
-- ==== Proof.KArrays.lean ====
/-
  The three arrays the kernel's region reads, as the host operations in front of it leave them, read at an entry.
  Before the region the program computes the running sums of the durations along each row (the right window
  boundaries), subtracts the durations from them (the left boundaries), views both [8, 512] arrays as [8, 1, 512],
  and converts the inputs to a narrower float format. At the ideal instance the conversion is the identity; the view
  keeps the row-major position, so entry (b, 0, k) of a viewed array is entry (b, k) of the array; and the running
  sum the program computes, started from the rank-0 broadcast of the constant zero, is the specification's, started
  from the constant zero itself (only the start value's one element is read).
-/
import proofs.«148968_j1039382086246_2_alg».proof.Proof.FrameKernelIdeal
import proofs.«148968_j1039382086246_2_alg».proof.Proof.LibBufCasts
import proofs.«148968_j1039382086246_2_alg».proof.Proof.Spec
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Arrays

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

/-- The durations' buffer has the durations' type: moving its contents to that type changes nothing. -/
theorem ofBuf_arg1 (h : main_arg1.ty = (⟨S8x512, .i32⟩ : BufTy)) (h1 : main_arg1.space ≠ .host)
    (h2 : main_arg1.isScoped = false) (v : main_arg1.ty.Contents (Elt Ideal)) :
    (StableHlo.TRef.of (sig := sig) (T := ⟨S8x512, .i32⟩) main_arg1 h h1 h2).ofBuf v = v := rfl

/-- The running sums' buffer has the running sums' type: moving contents to the buffer's type changes nothing. -/
theorem toBuf_v0 (h : main_v0.ty = (⟨S8x512, .i32⟩ : BufTy)) (h1 : main_v0.space ≠ .host)
    (h2 : main_v0.isScoped = false) (v : (⟨S8x512, .i32⟩ : BufTy).Contents (Elt Ideal)) :
    (StableHlo.TRef.of (sig := sig) (T := ⟨S8x512, .i32⟩) main_v0 h h1 h2).toBuf v = v := rfl

/-- The left boundaries the region finds: the specification's, viewed as [8, 1, 512]. -/
theorem left_fun (c : Dev nD) :
    (GenP.V m c main_v2 : S8x1x512.Idx → BitVec 32)
      = shapeCast S8x1x512 (Cert.Spec.left (m ((c : Thread nD τ).loc main_arg1))) shapeCasts_S8x512_S8x1x512 := by
  dsimp only [GenP.V]
  simp only [hostOps0, hostOps0_1, List.flatten_cons, List.flatten_nil, List.append_nil, List.cons_append, List.nil_append]
  after_results
  simp only [Cert.Lib.BufCasts.ofBuf_toBuf, Cert.Lib.BufCasts.toBuf_ofBuf, ofBuf_arg1, toBuf_v0]
  rfl

/-- The right boundaries the region finds: the specification's, viewed as [8, 1, 512]. -/
theorem cum_fun (c : Dev nD) :
    (GenP.V m c main_v3 : S8x1x512.Idx → BitVec 32)
      = shapeCast S8x1x512 (Cert.Spec.cum (m ((c : Thread nD τ).loc main_arg1))) shapeCasts_S8x512_S8x1x512 := by
  dsimp only [GenP.V]
  simp only [hostOps0, hostOps0_1, List.flatten_cons, List.flatten_nil, List.append_nil, List.cons_append, List.nil_append]
  after_results
  simp only [Cert.Lib.BufCasts.ofBuf_toBuf, Cert.Lib.BufCasts.toBuf_ofBuf, ofBuf_arg1, toBuf_v0]
  rfl

/-- The inputs the region finds: the launched inputs (the format conversion is the identity on extended reals). -/
theorem inputs_fun (c : Dev nD) :
    (GenP.V m c main_v4 : S8x512x384.Idx → EReal) = (m ((c : Thread nD τ).loc main_arg0) : S8x512x384.Idx → EReal) := by
  dsimp only [GenP.V]
  simp only [hostOps0, hostOps0_1, List.flatten_cons, List.flatten_nil, List.append_nil, List.cons_append, List.nil_append]
  after_results
  rfl

/-- Position (b, k) of an [8, 512] array and position (b, 0, k) of an [8, 1, 512] array have the same row-major number. -/
theorem reshape_ix (b : Fin 8) (k : Fin 512) :
    (S8x512.rowMajor (ix2 b k)).val = (S8x1x512.rowMajor (ix3 b (0 : Fin 1) k)).val := by
  rw [Shape.rowMajor_val_two, Shape.rowMajor_val_three]
  show b.val * 512 + k.val = (b.val * 1 + 0) * 512 + k.val
  omega

/-- Entry (b, 0, k) of the left-boundary array the region finds is the specification's left boundary at (b, k). -/
theorem left_entry (c : Dev nD) (b : Fin 8) (k : Fin 512) :
    (GenP.V m c main_v2 : S8x1x512.Idx → BitVec 32) (ix3 b (0 : Fin 1) k)
      = Cert.Spec.left (m ((c : Thread nD τ).loc main_arg1)) (ix2 b k) :=
  (congrFun (left_fun m c) (ix3 b (0 : Fin 1) k)).trans (shapeCast_apply _ _ _ (ix2 b k) (reshape_ix b k))

/-- Entry (b, 0, k) of the right-boundary array the region finds is the specification's running sum at (b, k). -/
theorem cum_entry (c : Dev nD) (b : Fin 8) (k : Fin 512) :
    (GenP.V m c main_v3 : S8x1x512.Idx → BitVec 32) (ix3 b (0 : Fin 1) k)
      = Cert.Spec.cum (m ((c : Thread nD τ).loc main_arg1)) (ix2 b k) :=
  (congrFun (cum_fun m c) (ix3 b (0 : Fin 1) k)).trans (shapeCast_apply _ _ _ (ix2 b k) (reshape_ix b k))

/-- Entry (b, k, d) of the input array the region finds is the launched input's entry. -/
theorem inputs_entry (c : Dev nD) (b : Fin 8) (k : Fin 512) (d : Fin 384) :
    (GenP.V m c main_v4 : S8x512x384.Idx → EReal) (ix3 b k d)
      = (m ((c : Thread nD τ).loc main_arg0) : S8x512x384.Idx → EReal) (ix3 b k d) :=
  congrFun (inputs_fun m c) (ix3 b k d)

end Cert.KernelIdeal.Arrays

end
-- ==== Proof.MaskShift.lean ====
/-
  Moving a tile offset across the window comparisons. A frame number f = 2048·t + r (tile t < 2, row r < 2048) is
  compared with a window boundary x, a 32-bit word whose signed value lies in [-4096, 4096]. Comparing the row r with
  the shifted boundary x - 2048·t gives the same bit as comparing the frame f with x: over the integers
  r ≥ x - 2048·t ⟺ 2048·t + r ≥ x (and the same for <), and at these sizes neither the product 2048·t, nor the
  subtraction, nor the sum 2048·t + r wraps around in 32 bits, so the signed word comparisons are the integer ones.
  A one-bit word widened to 32 bits and read as a signed integer is 0 or 1, the same real number as its value as a
  natural number; hence the mask computed per tile is the weight of the frame.
-/
import Idealize.ShloMosaic.PureOps.Ideal
import Idealize.ShloMosaic.Lib.ValueIdx
import Idealize.ShloMosaic.Lib.Affine
import proofs.«148968_j1039382086246_2_alg».proof.Proof.Spec

namespace Cert.MaskShift

open Idealize.ShloMosaic

/-- Two one-bit words that are 1 under the same condition are equal. -/
theorem bit_ext (x y : BitVec 1) (h : x = 1#1 ↔ y = 1#1) : x = y := by
  revert x y; decide

/-- A natural number below 2^31 is its own signed value as a 32-bit word. -/
theorem toInt_ofNat_small (n : ℕ) (h : n < 2 ^ 31) : (BitVec.ofNat 32 n).toInt = (n : Int) := by
  rw [BitVec.toInt_ofNat', Int.bmod_def]
  split_ifs <;> omega

/-- A difference of words that fits in 32 signed bits is the difference of the signed values. -/
theorem toInt_sub_small (x y : BitVec 32)
    (h : -2 ^ 31 ≤ x.toInt - y.toInt ∧ x.toInt - y.toInt < 2 ^ 31) : (x - y).toInt = x.toInt - y.toInt := by
  rw [BitVec.toInt_sub, Int.bmod_def]
  split_ifs <;> omega

/-- The tile offset 2048·t as a word, for t < 2: its signed value is 2048·t. -/
theorem toInt_offset (t : ℕ) (ht : t < 2) :
    (Scalar.muli (BitVec.ofNat 32 t) 2048#32).toInt = 2048 * (t : Int) := by
  interval_cases t <;> decide

/-- The shifted boundary x - 2048·t has signed value x - 2048·t when |x| ≤ 4096 and t < 2. -/
theorem toInt_shifted (x : BitVec 32) (t : ℕ) (ht : t < 2) (hx : -4096 ≤ x.toInt ∧ x.toInt ≤ 4096) :
    (IntOp.subi x (Scalar.muli (BitVec.ofNat 32 t) 2048#32)).toInt = x.toInt - 2048 * (t : Int) := by
  have ho := toInt_offset t ht
  unfold IntOp.subi
  rw [toInt_sub_small _ _ (by rw [ho]; omega), ho]

/-- Row r of tile t is at or after the shifted left boundary exactly when frame 2048·t + r is at or after the boundary. -/
theorem sge_shift (l : BitVec 32) (t r : ℕ) (ht : t < 2) (hr : r < 2048) (hl : -4096 ≤ l.toInt ∧ l.toInt ≤ 4096) :
    IntOp.cmpi .sge (BitVec.ofNat 32 r) (IntOp.subi l (Scalar.muli (BitVec.ofNat 32 t) 2048#32))
      = IntOp.cmpi .sge (BitVec.ofNat 32 (t * 2048 + r)) l := by
  apply bit_ext
  rw [IntOp.cmpi_sge, IntOp.cmpi_sge, toInt_shifted l t ht hl, toInt_ofNat_small r (by omega),
    toInt_ofNat_small (t * 2048 + r) (by omega)]
  push_cast
  constructor <;> intro h <;> omega

/-- Row r of tile t is before the shifted right boundary exactly when frame 2048·t + r is before the boundary. -/
theorem slt_shift (c : BitVec 32) (t r : ℕ) (ht : t < 2) (hr : r < 2048) (hc : -4096 ≤ c.toInt ∧ c.toInt ≤ 4096) :
    IntOp.cmpi .slt (BitVec.ofNat 32 r) (IntOp.subi c (Scalar.muli (BitVec.ofNat 32 t) 2048#32))
      = IntOp.cmpi .slt (BitVec.ofNat 32 (t * 2048 + r)) c := by
  apply bit_ext
  rw [IntOp.cmpi_slt, IntOp.cmpi_slt, toInt_shifted c t ht hc, toInt_ofNat_small r (by omega),
    toInt_ofNat_small (t * 2048 + r) (by omega)]
  push_cast
  constructor <;> intro h <;> omega

/-- A one-bit word widened to 32 bits and read as a signed integer is the same real number as the bit itself. -/
theorem bit_real (x : BitVec 1) : (((x.setWidth 32).toInt : ℝ) : EReal) = ((x.toNat : ℝ) : EReal) := by
  have hx : x = 0#1 ∨ x = 1#1 := by revert x; decide
  rcases hx with rfl | rfl
  · have h1 : ((0#1 : BitVec 1).setWidth 32).toInt = 0 := by decide
    have h2 : (0#1 : BitVec 1).toNat = 0 := by decide
    rw [h1, h2]; norm_num
  · have h1 : ((1#1 : BitVec 1).setWidth 32).toInt = 1 := by decide
    have h2 : (1#1 : BitVec 1).toNat = 1 := by decide
    rw [h1, h2]; norm_num

/-- The mask bit computed inside tile t at row r, widened and read as a real number, is the weight of frame
    2048·t + r for the window [l, c). -/
theorem weight_shift (l c : BitVec 32) (t r : ℕ) (ht : t < 2) (hr : r < 2048)
    (hl : -4096 ≤ l.toInt ∧ l.toInt ≤ 4096) (hc : -4096 ≤ c.toInt ∧ c.toInt ≤ 4096) :
    ((((IntOp.andi (IntOp.cmpi .sge (BitVec.ofNat 32 r) (IntOp.subi l (Scalar.muli (BitVec.ofNat 32 t) 2048#32)))
                   (IntOp.cmpi .slt (BitVec.ofNat 32 r) (IntOp.subi c (Scalar.muli (BitVec.ofNat 32 t) 2048#32)))).setWidth 32).toInt : ℝ) : EReal)
      = Cert.Spec.weight l c (BitVec.ofNat 32 (t * 2048 + r)) := by
  rw [sge_shift l t r ht hr hl, slt_shift c t r ht hr hc, bit_real]
  rfl

end Cert.MaskShift
-- ==== Proof.PreBounds.lean ====
/-
  The precondition read back as bounds on every entry. The precondition is the conjunction of five "for all entries"
  statements: every |xs| is below +∞, every duration ds(b,k) is at least 0 and at most 4096, and every running sum
  cum(b,k) is at least 0 and at most 4096 (all comparisons signed, on 32-bit words). Each "for all" is a reduction by
  "and" of an array of one-bit comparison results, so the reduction being 1 gives each comparison being 1, and a signed
  comparison of words being 1 is the inequality of their signed integer values. The running sum in the precondition
  is the same array as the specification's right boundaries. The left boundary cum - ds is then a difference of two
  integers of [0, 4096]: it lies in [-4096, 4096] and the 32-bit subtraction does not wrap.
-/
import Idealize.ShloMosaic.Lib.ValueIdx
import Idealize.ShloMosaic.Lib.ReduceAll
import Idealize.ShloMosaic.Lib.Affine
import proofs.«148968_j1039382086246_2_alg».proof.Pre_finite_inputs
import proofs.«148968_j1039382086246_2_alg».proof.Proof.Gen.Pre_finite_inputs
import proofs.«148968_j1039382086246_2_alg».proof.Proof.Spec

namespace Cert.PreBounds

open Idealize.ShloMosaic Idealize.ShloMosaic.ValueIdx

/-- The shape with no axes has exactly one index. -/
instance : Subsingleton (⟨0, ![]⟩ : Shape).Idx := ⟨fun a b => funext fun d => d.elim0⟩

/-- The running sum the precondition computes is the specification's array of right boundaries. -/
theorem cumW_eq (ds : IVec Cert.Spec.S8x512 32)
    (hw : Cert.Spec.S8x512.ReduceWindows (![1, 512] : Fin 2 → Nat) ![1, 1] ![0, 511] ![0, 0] Cert.Spec.S8x512)
    (hu : 0 < Cert.Spec.S_.numel) :
    Host.reduceWindow IntOp.addi ![1, 512] ![1, 1] ![0, 511] ![0, 0] ds (constantI Cert.Spec.S_ 32 0#32) hw hu
      = Cert.Spec.cum ds := rfl

theorem toInt_zero32 : (0#32 : BitVec 32).toInt = 0 := by decide
theorem toInt_4096 : (4096#32 : BitVec 32).toInt = 4096 := by decide

/-- The precondition gives, at every position (b, k): 0 ≤ ds ≤ 4096 and 0 ≤ cum ≤ 4096 as signed integers. -/
theorem bounds (xs : FVec Ideal Cert.Spec.S8x512x384 .f32) (ds : IVec Cert.Spec.S8x512 32)
    (h : Cert.Pre_finite_inputs.fn (F := Ideal) xs ds = fun _ => 1#1) (b : Fin 8) (k : Fin 512) :
    0 ≤ (ds (ValueIdx.ix2 b k)).toInt ∧ (ds (ValueIdx.ix2 b k)).toInt ≤ 4096
    ∧ 0 ≤ (Cert.Spec.cum ds (ValueIdx.ix2 b k)).toInt ∧ (Cert.Spec.cum ds (ValueIdx.ix2 b k)).toInt ≤ 4096 := by
  have h0 := congrFun h ValueIdx.ix0
  dsimp only [Cert.Pre_finite_inputs.fn, Cert.Pre_finite_inputs.fn_part1] at h0
  rw [cumW_eq] at h0
  simp only [andi, IntOp.andi_eq_one] at h0
  obtain ⟨⟨⟨⟨_, h2⟩, h3⟩, h4⟩, h5⟩ := h0
  have e2 := Host.reduce_andi_all _ _ _ _ _ h2 (ValueIdx.ix2 b k)
  have e3 := Host.reduce_andi_all _ _ _ _ _ h3 (ValueIdx.ix2 b k)
  have e4 := Host.reduce_andi_all _ _ _ _ _ h4 (ValueIdx.ix2 b k)
  have e5 := Host.reduce_andi_all _ _ _ _ _ h5 (ValueIdx.ix2 b k)
  simp only [cmpi, IntOp.cmpi_sge, IntOp.cmpi_sle, broadcastInDim, constantI, toInt_zero32, toInt_4096] at e2 e3 e4 e5
  exact ⟨e2, e3, e4, e5⟩

/-- A difference of words that fits in 32 signed bits is the difference of the signed values. -/
theorem toInt_sub_small (x y : BitVec 32)
    (h : -2 ^ 31 ≤ x.toInt - y.toInt ∧ x.toInt - y.toInt < 2 ^ 31) : (x - y).toInt = x.toInt - y.toInt := by
  rw [BitVec.toInt_sub, Int.bmod_def]
  split_ifs <;> omega

/-- Under the precondition every left boundary cum - ds lies in [-4096, 4096] as a signed integer. -/
theorem left_bounds (xs : FVec Ideal Cert.Spec.S8x512x384 .f32) (ds : IVec Cert.Spec.S8x512 32)
    (h : Cert.Pre_finite_inputs.fn (F := Ideal) xs ds = fun _ => 1#1) (b : Fin 8) (k : Fin 512) :
    -4096 ≤ (Cert.Spec.left ds (ValueIdx.ix2 b k)).toInt ∧ (Cert.Spec.left ds (ValueIdx.ix2 b k)).toInt ≤ 4096 := by
  obtain ⟨h1, h2, h3, h4⟩ := bounds xs ds h b k
  have e : Cert.Spec.left ds (ValueIdx.ix2 b k) = Cert.Spec.cum ds (ValueIdx.ix2 b k) - ds (ValueIdx.ix2 b k) := rfl
  rw [e, toInt_sub_small _ _ (by omega)]
  omega

end Cert.PreBounds
-- ==== Proof.Bridge.lean ====
/-
  The kernel's array is the length regulator's result, under the precondition. The window arrays the region finds are
  the input rows, the left boundaries and the right boundaries of the durations, so entry (b, f, d) of the kernel's
  array is Σₖ maskNumber(left(b,k), cum(b,k), 2048·(f / 2048), f mod 2048) · xs(b, k, d). The precondition puts every
  duration and every running sum in [0, 4096], hence every left boundary in [−4096, 4096]: subtracting the tile's offset
  (0 or 2048) from such a word does not wrap, so comparing the row f mod 2048 with the shifted boundary is comparing the
  frame f with the boundary itself, and the mask's number is the specification's weight. The two sums agree term by term.
-/
import proofs.«148968_j1039382086246_2_alg».proof.Proof.KValue
import proofs.«148968_j1039382086246_2_alg».proof.Proof.KArrays
import proofs.«148968_j1039382086246_2_alg».proof.Proof.MaskShift
import proofs.«148968_j1039382086246_2_alg».proof.Proof.PreBounds
import proofs.«148968_j1039382086246_2_alg».proof.Proof.Spec

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.GenP Cert.KernelIdeal.Tile

variable (m : (ℓ : Loc nD τ sig) → Buf (Elt Ideal) ℓ)

/-- THE KERNEL'S ARRAY IS THE SPECIFICATION'S RESULT of the two arguments, when the precondition holds of them. -/
theorem out_eq_result (c : Dev nD)
    (hpre : Cert.Pre_finite_inputs.fn (F := Ideal) (m ((c : Thread nD τ).loc main_arg0)) (m ((c : Thread nD τ).loc main_arg1)) = fun _ => 1#1) :
    Whole.out (V m c main_v4) (V m c main_v2) (V m c main_v3)
      = Cert.Spec.result (m ((c : Thread nD τ).loc main_arg0)) (m ((c : Thread nD τ).loc main_arg1)) := by
  funext idx
  obtain ⟨b, f, d, rfl⟩ : ∃ (b : Fin 8) (f : Fin 4096) (d : Fin 384), idx = ix3 b f d := ⟨idx 0, idx 1, idx 2, eq_ix3 idx⟩
  show Whole.entry _ _ _ b f d = Cert.Spec.entry _ _ _ b f d
  unfold Whole.entry Cert.Spec.entry
  refine Finset.sum_congr rfl fun k _ => ?_
  rw [Arrays.left_entry, Arrays.cum_entry, Arrays.inputs_entry]
  refine congrArg (· * _) ?_
  have hf : f.val < 4096 := f.isLt
  have hb := Cert.PreBounds.bounds _ _ hpre b k
  have hl := Cert.PreBounds.left_bounds _ _ hpre b k
  have hw := Cert.MaskShift.weight_shift (Cert.Spec.left (m ((c : Thread nD τ).loc main_arg1)) (ix2 b k))
    (Cert.Spec.cum (m ((c : Thread nD τ).loc main_arg1)) (ix2 b k)) (f.val / 2048) (f.val % 2048)
    (by omega) (by omega) hl ⟨by omega, hb.2.2.2⟩
  rw [show f.val / 2048 * 2048 + f.val % 2048 = f.val by omega] at hw
  exact hw

end Cert.KernelIdeal.Bridge

end
-- ==== Proof.RefRun.lean ====
/-
  The run of the comparison program. Its entry function is a straight line of host operations once the call of
  the running-sum function is listed in place: that call is three operations (the integer zero, its broadcast to a
  rank-zero array, the windowed sum of the durations), and fifteen operations of the entry function follow it (the
  left boundaries by subtraction, the frame numbers, the two comparisons broadcast to the full [8, 4096, 512]
  array, their conjunction, its conversion to a real number, the batched contraction with the inputs). Every
  weakly fair execution terminates with the result buffer at the composed pure term of the two argument arrays
  (T below) and with the arguments unchanged.
-/
import proofs.«148968_j1039382086246_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The eighteen operations in order: the three of the running-sum function over the call's buffers, then the
    entry function's own fifteen. -/
abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg1) main_call0.call0.v0 main_call0.call0.v1 (fun x v => Host.reduceWindow IntOp.addi ![1, 512] ![1, 1] ![0, 511] ![0, 0] x v reduceWindows_S8x512_S8x512_w1s1p0_0_w512s1p511_0 h_S_),
    binary main_v0 main_arg1 main_v1 (subi : (⟨S8x512, .i32⟩ : BufTy).Contents (Elt F) → (⟨S8x512, .i32⟩ : BufTy).Contents (Elt F) → (⟨S8x512, .i32⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    unary main_v1 main_v4 (broadcastInDim S8x1x512 ![0, 2] bcast_S8x512_S8x1x512_0_2 : (⟨S8x512, .i32⟩ : BufTy).Contents (Elt F) → (⟨S8x1x512, .i32⟩ : BufTy).Contents (Elt F)),
    unary main_v3 main_v5 (broadcastInDim S8x4096x512 ![0, 1, 2] bcast_S1x4096x1_S8x4096x512_0_1_2 : (⟨S1x4096x1, .i32⟩ : BufTy).Contents (Elt F) → (⟨S8x4096x512, .i32⟩ : BufTy).Contents (Elt F)),
    unary main_v4 main_v6 (broadcastInDim S8x4096x512 ![0, 1, 2] bcast_S8x1x512_S8x4096x512_0_1_2 : (⟨S8x1x512, .i32⟩ : BufTy).Contents (Elt F) → (⟨S8x4096x512, .i32⟩ : BufTy).Contents (Elt F)),
    binary main_v5 main_v6 main_v7 (cmpi .sge : (⟨S8x4096x512, .i32⟩ : BufTy).Contents (Elt F) → (⟨S8x4096x512, .i32⟩ : BufTy).Contents (Elt F) → (⟨S8x4096x512, .i1⟩ : BufTy).Contents (Elt F)),
    unary main_v0 main_v8 (broadcastInDim S8x1x512 ![0, 2] bcast_S8x512_S8x1x512_0_2 : (⟨S8x512, .i32⟩ : BufTy).Contents (Elt F) → (⟨S8x1x512, .i32⟩ : BufTy).Contents (Elt F)),
    unary main_v3 main_v9 (broadcastInDim S8x4096x512 ![0, 1, 2] bcast_S1x4096x1_S8x4096x512_0_1_2 : (⟨S1x4096x1, .i32⟩ : BufTy).Contents (Elt F) → (⟨S8x4096x512, .i32⟩ : BufTy).Contents (Elt F)),
    unary main_v8 main_v10 (broadcastInDim S8x4096x512 ![0, 1, 2] bcast_S8x1x512_S8x4096x512_0_1_2 : (⟨S8x1x512, .i32⟩ : BufTy).Contents (Elt F) → (⟨S8x4096x512, .i32⟩ : BufTy).Contents (Elt F)),
    binary main_v9 main_v10 main_v11 (cmpi .slt : (⟨S8x4096x512, .i32⟩ : BufTy).Contents (Elt F) → (⟨S8x4096x512, .i32⟩ : BufTy).Contents (Elt F) → (⟨S8x4096x512, .i1⟩ : BufTy).Contents (Elt F)),
    binary main_v7 main_v11 main_v12 (andi : (⟨S8x4096x512, .i1⟩ : BufTy).Contents (Elt F) → (⟨S8x4096x512, .i1⟩ : BufTy).Contents (Elt F) → (⟨S8x4096x512, .i1⟩ : BufTy).Contents (Elt F)),
    unary main_v12 main_v13 (uitofp .f32 : (⟨S8x4096x512, .i1⟩ : BufTy).Contents (Elt F) → (⟨S8x4096x512, .f32⟩ : BufTy).Contents (Elt F)),
    binary main_v13 main_arg0 main_v14 ((fun l r => Host.dotGeneral dot_S8x4096x512_S8x512x384_S8x4096x384_2_1_1_2_0_0 none l r) : (⟨S8x4096x512, .f32⟩ : BufTy).Contents (Elt F) → (⟨S8x512x384, .f32⟩ : BufTy).Contents (Elt F) → (⟨S8x4096x384, .f32⟩ : BufTy).Contents (Elt F)) ]

set_option maxRecDepth 1024 in
/-- The entry function is that straight line: the two called functions' definitions unfolded at their calls, both
    sides are one chain of steps once sequencing is reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., unary_bufs_sub .., unary_bufs_sub .., binary_bufs_sub .., unary_bufs_sub .., unary_bufs_sub ..,
    unary_bufs_sub .., binary_bufs_sub .., binary_bufs_sub .., unary_bufs_sub .., binary_bufs_sub ..⟩

/-- The frame numbers 0 … 4095 as a [1, 4096, 1] array of words. -/
def frames : IVec S1x4096x1 32 :=
  broadcastInDim S1x4096x1 ![1] bcast_S4096_S1x4096x1_1 (iotaInDim S4096 32 0)

/-- The running sums as the program computes them: the windowed sum from the broadcast zero. -/
def cumP (ds : IVec S8x512 32) : IVec S8x512 32 :=
  Host.reduceWindow IntOp.addi ![1, 512] ![1, 1] ![0, 511] ![0, 0] ds
    (broadcastInDim S_ ![] bcast_S_S_ (constantI S_ 32 0#32)) reduceWindows_S8x512_S8x512_w1s1p0_0_w512s1p511_0 h_S_

/-- A [8, 512] array of boundaries spread over the frames: entry (b, f, k) is entry (b, k). -/
def spread (v : IVec S8x512 32) : IVec S8x4096x512 32 :=
  broadcastInDim S8x4096x512 ![0, 1, 2] bcast_S8x1x512_S8x4096x512_0_1_2
    (broadcastInDim S8x1x512 ![0, 2] bcast_S8x512_S8x1x512_0_2 v)

/-- The frame numbers spread over batches and positions: entry (b, f, k) is f. -/
def framesAll : IVec S8x4096x512 32 :=
  broadcastInDim S8x4096x512 ![0, 1, 2] bcast_S1x4096x1_S8x4096x512_0_1_2 frames

/-- The mask as real numbers: 1 where left ≤ frame < right (signed), 0 elsewhere. -/
def mask (ds : IVec S8x512 32) : FVec F S8x4096x512 .f32 :=
  uitofp .f32 (andi (cmpi .sge framesAll (spread (subi (cumP ds) ds))) (cmpi .slt framesAll (spread (cumP ds))))

/-- The operations' composed term of the two argument arrays. -/
def T (xs : FVec F S8x512x384 .f32) (ds : IVec S8x512 32) : FVec F S8x4096x384 .f32 :=
  Host.dotGeneral dot_S8x4096x512_S8x512x384_S8x4096x384_2_1_1_2_0_0 none (mask ds) xs

attribute [local irreducible] Host.reduceWindow in
/-- The straight line read at the result buffer: the composed term of the arguments' contents. -/
theorem out_eq (V : Valuation τ sig (Elt F)) :
    after ops V (main_v14 : DevRef τ sig) = T (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On the device, for any float values, from any memory with zero counters: every weakly fair execution of the
    entry function terminates with the result buffer at T of the arguments' launch contents and the arguments
    unchanged. -/
theorem run_T (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = T (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefValue.lean ====
/-
  The comparison program's result is the length regulator's function of its arguments. The program's composed
  term T is a batched contraction: entry (b, f, d) is the sum over the 512 input positions k of the mask at
  (b, f, k) times the input at (b, k, d). The mask at (b, f, k) is the bit (left(b,k) ≤ f) ∧ (f < right(b,k)),
  signed comparisons of 32-bit words, read as a real number: the frame number f reaches that entry through two
  broadcasts of the iota, the boundaries through two broadcasts of the [8, 512] arrays. The program's running sum
  starts from a broadcast zero where the specification starts from the zero itself; the windowed sum reads its
  start value at the one index of a rank-zero array only, where both are the zero word.
-/
import proofs.«148968_j1039382086246_2_alg».proof.Proof.RefRun
import proofs.«148968_j1039382086246_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The contraction's dimension numbers: batch axis 0 on both sides, the left operand's axis 2 contracted with
    the right operand's axis 1. -/
abbrev D : DotDims S8x4096x512 S8x512x384 S8x4096x384 := dot_S8x4096x512_S8x512x384_S8x4096x384_2_1_1_2_0_0

/-! ## Where the dimension numbers send an output index and a contraction index -/

theorem lhs_0 (i : S8x4096x384.Idx) (q : D.contr.Idx) : (D.lhsIdx i q 0).val = (i 0).val := by
  unfold DotDims.lhsIdx
  rw [dif_pos (show (0 : Fin S8x4096x512.rank) ∈ D.lhsBatch by decide)]
  rfl
theorem lhs_1 (i : S8x4096x384.Idx) (q : D.contr.Idx) : (D.lhsIdx i q 1).val = (i 1).val := by
  unfold DotDims.lhsIdx
  rw [dif_neg (show ¬(1 : Fin S8x4096x512.rank) ∈ D.lhsBatch by decide), dif_pos (show (1 : Fin S8x4096x512.rank) ∈ D.lhsNonContracting by decide)]
  rfl
theorem lhs_2 (i : S8x4096x384.Idx) (q : D.contr.Idx) : (D.lhsIdx i q 2).val = (q ⟨0, by decide⟩).val :=
  D.lhsIdx_val_of_single rfl i q
theorem rhs_0 (i : S8x4096x384.Idx) (q : D.contr.Idx) : (D.rhsIdx i q 0).val = (i 0).val := by
  unfold DotDims.rhsIdx
  rw [dif_pos (show (0 : Fin S8x512x384.rank) ∈ D.rhsBatch by decide)]
  rfl
theorem rhs_1 (i : S8x4096x384.Idx) (q : D.contr.Idx) : (D.rhsIdx i q 1).val = (q ⟨0, by decide⟩).val :=
  D.rhsIdx_val_of_single rfl i q
theorem rhs_2 (i : S8x4096x384.Idx) (q : D.contr.Idx) : (D.rhsIdx i q 2).val = (i 2).val := by
  unfold DotDims.rhsIdx
  rw [dif_neg (show ¬(2 : Fin S8x512x384.rank) ∈ D.rhsBatch by decide), dif_pos (show (2 : Fin S8x512x384.rank) ∈ D.rhsNonContracting by decide)]
  rfl

/-- The contraction index is the position k. -/
abbrev e : D.contr.Idx ≃ Fin 512 := contrEquiv1 D 512 rfl rfl

/-- At output (b, f, d) and position k the left operand is read at (b, f, k) … -/
theorem lhsIdx_eq (b : Fin 8) (f : Fin 4096) (d : Fin 384) (k : Fin 512) :
    D.lhsIdx (ix3 b f d) (e.symm k) = ix3 b f k := by
  have hk := contrEquiv1_symm_val D 512 rfl rfl k
  exact funext fun a => Fin.ext (by
    match a with
    | ⟨0, _⟩ => exact lhs_0 _ _
    | ⟨1, _⟩ => exact lhs_1 _ _
    | ⟨2, _⟩ => exact (lhs_2 _ _).trans hk)

/-- … and the right operand at (b, k, d). -/
theorem rhsIdx_eq (b : Fin 8) (f : Fin 4096) (d : Fin 384) (k : Fin 512) :
    D.rhsIdx (ix3 b f d) (e.symm k) = ix3 b k d := by
  have hk := contrEquiv1_symm_val D 512 rfl rfl k
  exact funext fun a => Fin.ext (by
    match a with
    | ⟨0, _⟩ => exact rhs_0 _ _
    | ⟨1, _⟩ => exact (rhs_1 _ _).trans hk
    | ⟨2, _⟩ => exact rhs_2 _ _)

/-! ## The broadcasts read at an entry -/

/-- The frame numbers spread over the full array read f at (b, f, k). -/
theorem framesAll_apply (b : Fin 8) (f : Fin 4096) (k : Fin 512) : framesAll (ix3 b f k) = BitVec.ofNat 32 f.val := rfl

/-- A boundary array spread over the frames reads its entry (b, k) at (b, f, k). -/
theorem spread_apply (v : IVec S8x512 32) (b : Fin 8) (f : Fin 4096) (k : Fin 512) : spread v (ix3 b f k) = v (ix2 b k) := by
  unfold spread broadcastInDim
  exact congrArg v (funext fun a => match a with | ⟨0, _⟩ => rfl | ⟨1, _⟩ => rfl)

/-! ## The running sum's start value -/

/-- The windowed fold reads its start value at the first index of the start array only: two start arrays that agree
    there give the same result. -/
theorem reduceWindow_init_congr {α : Type} {s t u : Shape} (g : α → α → α) (window strides lo hi : Fin s.rank → Nat)
    (x : s.Idx → α) (init init' : u.Idx → α) (h : s.ReduceWindows window strides lo hi t) (h' : s.ReduceWindows window strides lo hi t)
    (hu : 0 < u.numel) (hu' : 0 < u.numel)
    (hinit : init (Shape.Idx.first hu) = init' (Shape.Idx.first hu')) :
    Host.reduceWindow g window strides lo hi x init h hu = Host.reduceWindow g window strides lo hi x init' h' hu' := by
  unfold Host.reduceWindow
  rw [hinit]

/-- The program's running sums are the specification's. -/
theorem cumP_eq (ds : IVec S8x512 32) : cumP ds = Cert.Spec.cum ds := by
  unfold cumP Cert.Spec.cum
  exact reduceWindow_init_congr _ _ _ _ _ _ _ _ _ _ _ _ rfl

/-! ## The mask and the result -/

/-- The mask at (b, f, k) is the specification's weight of the window [left(b,k), right(b,k)) at frame f. -/
theorem mask_apply (ds : IVec S8x512 32) (b : Fin 8) (f : Fin 4096) (k : Fin 512) :
    mask (F := Ideal) ds (ix3 b f k)
      = Cert.Spec.weight (Cert.Spec.left ds (ix2 b k)) (Cert.Spec.cum ds (ix2 b k)) (BitVec.ofNat 32 f.val) := by
  show FloatOps.uitofp (F := Ideal) .f32
      (IntOp.andi (IntOp.cmpi .sge (framesAll (ix3 b f k)) (spread (subi (cumP ds) ds) (ix3 b f k)))
        (IntOp.cmpi .slt (framesAll (ix3 b f k)) (spread (cumP ds) (ix3 b f k)))) = _
  rw [framesAll_apply, spread_apply, spread_apply, cumP_eq]
  rfl

/-- The program's composed term is the length regulator's result. -/
theorem T_eq (xs : FVec Ideal S8x512x384 .f32) (ds : IVec S8x512 32) : T (F := Ideal) xs ds = Cert.Spec.result xs ds := by
  funext idx
  obtain ⟨b, f, d, rfl⟩ : ∃ (b : Fin 8) (f : Fin 4096) (d : Fin 384), idx = ix3 b f d := ⟨idx 0, idx 1, idx 2, eq_ix3 idx⟩
  unfold Cert.Spec.result
  rw [Cert.Spec.out_ix3]
  unfold T Cert.Spec.entry
  simp only [Host.dotGeneral]
  rw [Ideal.dotGeneral_apply, ← Equiv.sum_comp e.symm]
  refine Finset.sum_congr rfl fun k _ => ?_
  rw [lhsIdx_eq, rhsIdx_eq, mask_apply]

/-! ## The run, stated with the specification -/

open Idealize.ShloMosaic.TcCoe Idealize.SL.Sem Idealize.ShloMosaic.StableHlo in
/-- On the device, at the ideal values, from any memory with zero counters: every weakly fair execution of the
    comparison program terminates with its result buffer holding the length regulator's result of the two
    arguments' launch contents, and with the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v14)
            = Cert.Spec.result (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans (T_eq _ _), (h c).2⟩) (run_T m ρ)

end Cert.ReferenceIdeal.RefValue

end
-- ==== Proof.lean ====
/- The length regulator, kernel against reference, at exact arithmetic.
   Both programs compute out(b, f, d) = Σₖ M(b, f, k) · xs(b, k, d), where M(b, f, k) = 1 when frame f lies in the window
   [left(b,k), cum(b,k)) of input position k and 0 otherwise, cum the running sum of a row's durations and left = cum − ds
   (32-bit words: the sums wrap, the comparisons are signed). The reference forms the whole 8 × 4096 × 512 mask and one
   batched product. The kernel walks a grid of 8 batches × 2 tiles of 2048 frames: a tile subtracts its offset 2048·i₁
   from the two boundary rows, compares them with the row numbers 0 … 2047, and multiplies the 2048 × 512 mask into the
   batch's 512 × 384 input rows; the sixteen blocks tile the result.
   The two masks agree where subtracting the offset from a boundary word does not wrap. The precondition says the
   durations are non-negative and their running sums stay within the padded output length 4096, so every boundary lies
   in [−4096, 4096] and the shift is exact: r ≥ l − 2048·i₁ ⟺ 2048·i₁ + r ≥ l, and likewise for <. The sums then agree
   term by term; no law of the extended reals beyond that is used, and the finiteness of xs is not needed.
   Modules: Spec (the result as one function of the arguments), KPayload (a tile at an entry), KValue (blocks to the
   array, the kernel's run), KArrays (the window arrays the region finds), MaskShift and PreBounds (the shift of the
   comparisons; the precondition read entry by entry), Bridge (kernel array = Spec), RefRun and RefValue (the
   reference's run and its result = Spec). The frames of the two kernel programs are the frame certificates of the
   modules FrameKernel and FrameKernelIdeal. -/
import proofs.«148968_j1039382086246_2_alg».proof.Defs
import proofs.«148968_j1039382086246_2_alg».proof.Proof.Gen.Kernel
import proofs.«148968_j1039382086246_2_alg».proof.Proof.Gen.Kernel.Skeleton
import proofs.«148968_j1039382086246_2_alg».proof.Proof.Gen.Kernel.Launch
import proofs.«148968_j1039382086246_2_alg».proof.Proof.Gen.Kernel.Points
import proofs.«148968_j1039382086246_2_alg».proof.Proof.FrameKernel
import proofs.«148968_j1039382086246_2_alg».proof.Proof.Gen.KernelIdeal
import proofs.«148968_j1039382086246_2_alg».proof.Proof.Gen.KernelIdeal.Skeleton
import proofs.«148968_j1039382086246_2_alg».proof.Proof.Gen.KernelIdeal.Launch
import proofs.«148968_j1039382086246_2_alg».proof.Proof.Gen.KernelIdeal.Points
import proofs.«148968_j1039382086246_2_alg».proof.Proof.FrameKernelIdeal
import proofs.«148968_j1039382086246_2_alg».proof.Proof.Gen.ReferenceIdeal
import proofs.«148968_j1039382086246_2_alg».proof.Proof.Gen.Pre_finite_inputs
import proofs.«148968_j1039382086246_2_alg».proof.Proof.KValue
import proofs.«148968_j1039382086246_2_alg».proof.Proof.Bridge
import proofs.«148968_j1039382086246_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- So does the kernel read at exact arithmetic. -/
theorem frame_kernelIdeal : Cert.frame_KernelIdeal := fun m ρ _ => Cert.KernelIdeal.GenP.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RefValue.run m ρ)

/-- From memories that agree on the arguments and satisfy the precondition, the kernel's result array and the
    reference's are both the length regulator's result of those arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Bridge.out_eq_result m c (hpre c)), (h c).2⟩)
      (Cert.KernelIdeal.Whole.run m ρ)
  · refine (θ_run Cert.ReferenceIdeal.defs _ _).mono (fun r h c => ⟨?_, (h c).2⟩)
      (Cert.ReferenceIdeal.RefValue.run m' ρ')
    rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
